-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 76
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageRun.lean ====
/-
  The idealized kernel program runs to the end, and every buffer it does not scope ends at the value the
  program's six segments compute for it.

  The program is three stretches of host operations, each followed by one kernel region.  Following the buffers
  through the segments gives, for every core, a valuation `W6` of the unscoped buffers after the last region: a
  host stretch applies its operations to the valuation before it, a region replaces its arrays by what its
  write-backs leave.  Every weakly fair execution terminates without a fault in a state whose unscoped buffers
  hold `W6`; in particular the result buffer holds `W6` at the result, and the twelve arguments are as launched.
-/
import proofs.«177049_j23175643530075_1_alg».proof.Proof.KernelIdealFrameP

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting,
    with every unscoped buffer of every core at `W6`: the program is the run of its six segments; each pipeline is
    entered once; the cores owe nothing at launch; the thread state before the first segment is "the unscoped
    buffers at their launch contents", each segment's state is the next one's, and the last state, "the unscoped
    buffers at `W6`", is read against the final memory buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result named: the result buffer ends at `W6`'s value for it, every argument as launched. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v50 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩)
    (run_all m ρ)

end Cert.Sage.Run

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.SageAlgebra.lean ====
/-
  The algebra of one mean-aggregating graph layer on the extended reals.

  A layer sends node features `h` and summed neighbour features `a` to
  `h · Wself + (a scaled by the node's degree) · Wneigh + b`.  The scaling is written in two ways:
  as the product with the reciprocal `1 / d` of the clamped degree `d = max deg 1`, and as the
  quotient by `d`.  On the extended reals these agree as soon as `d ≠ 0` — no finiteness of the
  numerator is needed, since both are the product with `d⁻¹` — and a clamped degree is at least
  one, hence never zero.
-/
import Idealize.ShloMosaic.PureOps.Ideal
import Idealize.ShloMosaic.PureOps.Ideal.Laws
import Idealize.ShloMosaic.Lib.IdealHost
import Idealize.ShloMosaic.Lib.ValueIdx

noncomputable section

namespace Cert.Sage

open Idealize.ShloMosaic Idealize.ShloMosaic.ValueIdx

/-- Off zero, the product with the reciprocal is the quotient, for every extended real numerator. -/
theorem mul_one_div_eq_div (x d : EReal) (hd : d ≠ 0) : x * Ideal.div 1 d = Ideal.div x d := by
  unfold Ideal.div
  rw [if_neg hd, if_neg hd, one_mul]

/-- A degree clamped below by one is not zero. -/
theorem max_one_ne_zero (x : EReal) : max x 1 ≠ 0 :=
  (lt_of_lt_of_le zero_lt_one (le_max_right x 1)).ne'

/-- The mean of the neighbours, both ways: summed features times the reciprocal of the clamped degree is
    summed features over the clamped degree. -/
theorem scale_eq (a deg : EReal) : a * Ideal.div 1 (max deg 1) = Ideal.div a (max deg 1) :=
  mul_one_div_eq_div a _ (max_one_ne_zero deg)

/-- The dense part of a layer at row `p` and column `q`: row `p` of the features against column `q` of the
    self weights, plus row `p` of the neighbour means against column `q` of the neighbour weights, plus
    the bias at `q` (the bias laid out as one row). -/
def denseAt (n d o : ℕ) (h hn : (⟨2, ![n, d]⟩ : Shape).Idx → EReal) (ws wn : (⟨2, ![d, o]⟩ : Shape).Idx → EReal)
    (b : (⟨2, ![1, o]⟩ : Shape).Idx → EReal) (p : Fin n) (q : Fin o) : EReal :=
  (∑ k : Fin d, h (ix2 p k) * ws (ix2 k q)) + (∑ k : Fin d, hn (ix2 p k) * wn (ix2 k q)) + b (ix2 (0 : Fin 1) q)

/-- The dense part of a layer as a whole array. -/
def dense (n d o : ℕ) (h hn : (⟨2, ![n, d]⟩ : Shape).Idx → EReal) (ws wn : (⟨2, ![d, o]⟩ : Shape).Idx → EReal)
    (b : (⟨2, ![1, o]⟩ : Shape).Idx → EReal) : (⟨2, ![n, o]⟩ : Shape).Idx → EReal :=
  fun i => denseAt n d o h hn ws wn b (i 0) (i 1)

/-- The same followed by the rectifier. -/
def denseRelu (n d o : ℕ) (h hn : (⟨2, ![n, d]⟩ : Shape).Idx → EReal) (ws wn : (⟨2, ![d, o]⟩ : Shape).Idx → EReal)
    (b : (⟨2, ![1, o]⟩ : Shape).Idx → EReal) : (⟨2, ![n, o]⟩ : Shape).Idx → EReal :=
  fun i => max (denseAt n d o h hn ws wn b (i 0) (i 1)) 0

theorem dense_ix2 (n d o : ℕ) (h hn : (⟨2, ![n, d]⟩ : Shape).Idx → EReal) (ws wn : (⟨2, ![d, o]⟩ : Shape).Idx → EReal)
    (b : (⟨2, ![1, o]⟩ : Shape).Idx → EReal) (p : Fin n) (q : Fin o) :
    dense n d o h hn ws wn b (ix2 p q) = denseAt n d o h hn ws wn b p q := rfl

theorem denseRelu_ix2 (n d o : ℕ) (h hn : (⟨2, ![n, d]⟩ : Shape).Idx → EReal) (ws wn : (⟨2, ![d, o]⟩ : Shape).Idx → EReal)
    (b : (⟨2, ![1, o]⟩ : Shape).Idx → EReal) (p : Fin n) (q : Fin o) :
    denseRelu n d o h hn ws wn b (ix2 p q) = max (denseAt n d o h hn ws wn b p q) 0 := rfl

/-- A dense entry depends on the features only through row `p`, on the weights only through column `q`. -/
theorem denseAt_congr (n d o : ℕ) {h hn h' hn' : (⟨2, ![n, d]⟩ : Shape).Idx → EReal} {ws wn ws' wn' : (⟨2, ![d, o]⟩ : Shape).Idx → EReal}
    {b b' : (⟨2, ![1, o]⟩ : Shape).Idx → EReal} (p : Fin n) (q : Fin o)
    (e0 : ∀ k : Fin d, h (ix2 p k) = h' (ix2 p k)) (e1 : ∀ k : Fin d, hn (ix2 p k) = hn' (ix2 p k))
    (e2 : ∀ k : Fin d, ws (ix2 k q) = ws' (ix2 k q)) (e3 : ∀ k : Fin d, wn (ix2 k q) = wn' (ix2 k q))
    (e4 : b (ix2 (0 : Fin 1) q) = b' (ix2 (0 : Fin 1) q)) :
    denseAt n d o h hn ws wn b p q = denseAt n d o h' hn' ws' wn' b' p q := by
  unfold denseAt
  exact congrArg₂ (· + ·) (congrArg₂ (· + ·) (Finset.sum_congr rfl fun k _ => by rw [e0 k, e2 k])
    (Finset.sum_congr rfl fun k _ => by rw [e1 k, e3 k])) e4

end Cert.Sage

end
-- ==== Proof.SagePayload.lean ====
/-
  The three dense tiles of the layer kernels, read at an entry, on the extended reals.

  Each kernel body loads a tile of 5000 rows of the node features `x0` and of the neighbour means `x1`, the
  two weight matrices `x2`, `x3` whole and the bias `x4` as one row, and stores
  `x0 · x2 + x1 · x3 + bias` (followed by the rectifier in the first two layers).  On the extended reals the
  changes of float format are the identity and each matrix product into a zero accumulator is the plain sum
  over the contracted axis, so entry `(p, q)` of the stored tile is
  `Σ_k x0 p k · x2 k q + Σ_k x1 p k · x3 k q + x4 0 q`, clamped below by zero where the rectifier applies.
-/
import proofs.«177049_j23175643530075_1_alg».proof.Proof.Gen.KernelIdeal.Skeleton
import proofs.«177049_j23175643530075_1_alg».proof.Proof.LibMatmulRowCol
import proofs.«177049_j23175643530075_1_alg».proof.Proof.SageAlgebra
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx Cert.KernelIdeal Cert.KernelIdeal.Gen

/-- A tile of 5000 rows against a 128 × 128 weight matrix, into a zero accumulator: entry `(p, q)` is the sum
    over `k` of `X p k · W k q`. -/
theorem tile_matmul128 {φ₁ φ₂ : FTy} (X : FVec Ideal S5000x128 φ₁) (W : FVec Ideal S128x128 φ₂) (p : Fin 5000) (q : Fin 128) :
    matmul dot_S5000x128_S128x128_S5000x128_1_0_0_1_n_n none X W (constant (F := Ideal) S5000x128 .f32 0x00000000#32) (ix2 p q)
      = ∑ k : Fin 128, X (ix2 p k) * W (ix2 k q) :=
  Cert.LibMatmul.matmul_rowcol (M := 5000) (K := 128) (N := 128) dot_S5000x128_S128x128_S5000x128_1_0_0_1_n_n rfl rfl
    (fun i c => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i c => dot_S5000x128_S128x128_S5000x128_1_0_0_1_n_n.lhsIdx_val_of_single rfl i c)
    (fun i c => dot_S5000x128_S128x128_S5000x128_1_0_0_1_n_n.rhsIdx_val_of_single rfl i c)
    (fun i c => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    X W p q

/-- The same against a 128 × 64 weight matrix (the last layer). -/
theorem tile_matmul64 {φ₁ φ₂ : FTy} (X : FVec Ideal S5000x128 φ₁) (W : FVec Ideal S128x64 φ₂) (p : Fin 5000) (q : Fin 64) :
    matmul dot_S5000x128_S128x64_S5000x64_1_0_0_1_n_n none X W (constant (F := Ideal) S5000x64 .f32 0x00000000#32) (ix2 p q)
      = ∑ k : Fin 128, X (ix2 p k) * W (ix2 k q) :=
  Cert.LibMatmul.matmul_rowcol (M := 5000) (K := 128) (N := 64) dot_S5000x128_S128x64_S5000x64_1_0_0_1_n_n rfl rfl
    (fun i c => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun i c => dot_S5000x128_S128x64_S5000x64_1_0_0_1_n_n.lhsIdx_val_of_single rfl i c)
    (fun i c => dot_S5000x128_S128x64_S5000x64_1_0_0_1_n_n.rhsIdx_val_of_single rfl i c)
    (fun i c => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    X W p q

/-- The first layer's stored tile at `(p, q)`. -/
theorem pay0_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) 0 := by
  unfold k0_pay1
  refine congrArg₂ max (congrArg₂ (· + ·) (congrArg₂ (· + ·) ?_ ?_) ?_) Ideal.ofBits_zero_f32
  · exact tile_matmul128 _ _ p q
  · refine (tile_matmul128 _ _ p q).trans ?_
    rw [shapeCast_self]
    rfl
  · rw [shapeCast_self]
    exact broadcastTo_1b_ab_apply x4 _ p q

/-- The second layer's stored tile at `(p, q)`. -/
theorem pay1_apply (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) 0 := by
  unfold k1_pay1
  refine congrArg₂ max (congrArg₂ (· + ·) (congrArg₂ (· + ·) ?_ ?_) ?_) Ideal.ofBits_zero_f32
  · refine (tile_matmul128 _ _ p q).trans ?_
    rw [shapeCast_self]
    rfl
  · refine (tile_matmul128 _ _ p q).trans ?_
    rw [shapeCast_self]
    rfl
  · rw [shapeCast_self]
    exact broadcastTo_1b_ab_apply x4 _ p q

/-- The last layer's stored tile at `(p, q)`: no rectifier, 64 columns. -/
theorem pay2_apply (x0 x1 : FVec Ideal S5000x128 .f32) (x2 x3 : FVec Ideal S128x64 .f32) (x4 : FVec Ideal S1x64 .f32)
    (p : Fin 5000) (q : Fin 64) :
    k2_pay1 (F := Ideal) x0 x1 x2 x3 x4 (ix2 p q)
      = (∑ k : Fin 128, x0 (ix2 p k) * x2 (ix2 k q)) + (∑ k : Fin 128, x1 (ix2 p k) * x3 (ix2 k q))
          + x4 (ix2 (0 : Fin 1) q) := by
  unfold k2_pay1
  refine congrArg₂ (· + ·) (congrArg₂ (· + ·) ?_ ?_) ?_
  · refine (tile_matmul64 _ _ p q).trans ?_
    rw [shapeCast_self]
    rfl
  · refine (tile_matmul64 _ _ p q).trans ?_
    rw [shapeCast_self]
    rfl
  · rw [shapeCast_self]
    exact broadcastTo_1b_ab_apply x4 _ p q

end Cert.Sage

end
-- ==== Proof.SageRegion0.lean ====
/-
  The first layer's kernel region: what its output array holds when the region ends.

  The grid has 20 points; point `t` reads rows `5000 t … 5000 t + 4999` of the node features and of the
  neighbour means, both weight matrices and the bias row whole, and writes rows `5000 t … 5000 t + 4999` of the
  output.  A stored tile entry `(p, q)` is therefore the dense layer's entry `(5000 t + p, q)` of the WHOLE
  input arrays, clamped below by zero; the 20 tiles cover all 100000 rows (row `r` lies in tile `r / 5000`), so the
  output array ends as the dense layer of the arrays the region found, whatever those are.
-/
import proofs.«177049_j23175643530075_1_alg».proof.Proof.KernelIdealFrameP
import proofs.«177049_j23175643530075_1_alg».proof.Proof.SagePayload
import Idealize.ShloMosaic.Lib.Pipeline.Value

set_option maxRecDepth 16384

noncomputable section

namespace Cert.Sage.Region0

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

/-- A tile entry is the dense layer's entry at the tile's row `r` of the whole arrays, once the loaded blocks are
    known to hold row `r` of the features and of the neighbour means, column `q` of the weights and the bias. -/
theorem tile_entry (H HN : FVec Ideal S100000x128 .f32) (WS WN : FVec Ideal S128x128 .f32) (B : FVec Ideal S1x128 .f32)
    (x0 x1 : FVec Ideal S5000x128 .f32) (x2 x3 : FVec Ideal S128x128 .f32) (x4 : FVec Ideal S1x128 .f32)
    (r : Fin 100000) (p : Fin 5000) (q : Fin 128)
    (h0 : ∀ k : Fin 128, x0 (ix2 p k) = H (ix2 r k)) (h1 : ∀ k : Fin 128, x1 (ix2 p k) = HN (ix2 r k))
    (h2 : ∀ k : Fin 128, x2 (ix2 k q) = WS (ix2 k q)) (h3 : ∀ k : Fin 128, x3 (ix2 k q) = WN (ix2 k q))
    (h4 : x4 (ix2 (0 : Fin 1) q) = B (ix2 (0 : Fin 1) q)) :
    k0_pay1 (F := Ideal) x0 x1 x2 x3 x4 (ix2 p q) = denseRelu 100000 128 128 H HN WS WN B (ix2 r q) := by
  refine (pay0_apply x0 x1 x2 x3 x4 p q).trans ?_
  show _ = max (denseAt 100000 128 128 H HN WS WN B r q) 0
  unfold denseAt
  exact congrArg (fun z => max z 0) (congrArg₂ (· + ·) (congrArg₂ (· + ·) (Finset.sum_congr rfl fun k _ => by rw [h0 k, h2 k])
    (Finset.sum_congr rfl fun k _ => by rw [h1 k, h3 k])) h4)

theorem hz : (![0, 0] : Fin 2 → Nat) = fun _ => 0 := funext fun a => by fin_cases a <;> rfl

/-- The printed index maps over the grid: the two row-tiled inputs and the output sit at block `(t, 0)`, the
    weights and the bias at block `(0, 0)`. -/
theorem idx : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- What point `t` writes back is block `t` of the dense layer of the arrays the region found. -/
theorem flushed (c : Dev nD) (t : Fin cfg0.N) :
    (dat0 (F := Ideal) V c).flushed 5 t = ((cfg0.win 5).blk t).view.read (Elt Ideal)
      (denseRelu 100000 128 128 (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx t
  have ht : t.val < 20 := by
    have h := t.isLt
    have hN : cfg0.N = 20 := N_0
    omega
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have hE : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = denseRelu 100000 128 128 (V c main_arg0) (V c main_v20) (V c main_arg3) (V c main_arg4) (V c main_v21) (((cfg0.win 5).blk t).view.emb (ix2 p q))
  refine Eq.trans ?_ (congrArg (denseRelu 100000 128 128 (V c main_arg0) (V c main_v20) (V c main_arg3) (V c main_arg4) (V c main_v21)) hE.symm)
  refine tile_entry (V c main_arg0) (V c main_v20) (V c main_arg3) (V c main_arg4) (V c main_v21)
    (iblk0 V c 0 t) (iblk0 V c 1 t) (iblk0 V c 2 t) (iblk0 V c 3 t) (iblk0 V c 4 t)
    (⟨t.val * 5000 + p.val, hr⟩ : Fin 100000) p q ?_ ?_ ?_ ?_ ?_
  · intro k
    show V c main_arg0 (((cfg0.win 0).blk t).view.emb (ix2 p k)) = V c main_arg0 (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_v20 (((cfg0.win 1).blk t).view.emb (ix2 p k)) = V c main_v20 (ix2 (⟨t.val * 5000 + p.val, hr⟩ : Fin 100000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k
    show V c main_arg3 (((cfg0.win 2).blk t).view.emb (ix2 k q)) = V c main_arg3 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k
    show V c main_arg4 (((cfg0.win 3).blk t).view.emb (ix2 k q)) = V c main_arg4 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v21 (((cfg0.win 4).blk t).view.emb (ix2 (0 : Fin 1) q)) = V c main_v21 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every index of the output array is in some point's block: row `r` is in tile `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e50, e51, -⟩ := idx (⟨(i 0).val / 5000, hlt⟩ : Fin cfg0.N)
  have e50' : win0_5.index (⟨(i 0).val / 5000, hlt⟩ : Fin cfg0.N) (0 : Fin 2) = (i 0).val / 5000 := e50
  refine ⟨⟨(i 0).val / 5000, hlt⟩, flush0_5 _, ?_⟩
  rw [mem_blk]
  intro a
  match a with
  | ⟨0, _⟩ =>
    show win0_5.index (⟨(i 0).val / 5000, hlt⟩ : Fin cfg0.N) (0 : Fin 2) * 5000 ≤ (i 0).val
      ∧ (i 0).val < win0_5.index (⟨(i 0).val / 5000, hlt⟩ : Fin cfg0.N) (0 : Fin 2) * 5000 + 5000
    omega
  | ⟨1, _⟩ =>
    show win0_5.index (⟨(i 0).val / 5000, hlt⟩ : Fin cfg0.N) (1 : Fin 2) * 128 ≤ (i 1).val
      ∧ (i 1).val < win0_5.index (⟨(i 0).val / 5000, hlt⟩ : Fin cfg0.N) (1 : Fin 2) * 128 + 128
    omega

/-- The region's output array when the region ends: the dense layer of the arrays the region found. -/
theorem final (c : Dev nD) :
    (dat0 (F := Ideal) V c).arrAt 5 cfg0.N
      = denseRelu 100000 128 128 (V c main_arg0) (V c main_v20) (V c main_arg3) (V c main_arg4) (V c main_v21) :=
  (dat0 (F := Ideal) V c).arrAt_eq_of_cover 5 _ (fun t _ => flushed V c t) cover

end Cert.Sage.Region0

end
-- ==== Proof.SageRegion1.lean ====
/-
  The second layer's kernel region: what its output array holds when the region ends.

  The grid has 20 points; point `t` reads rows `5000 t … 5000 t + 4999` of the node features and of the
  neighbour means, both weight matrices and the bias row whole, and writes rows `5000 t … 5000 t + 4999` of the
  output.  A stored tile entry `(p, q)` is therefore the dense layer's entry `(5000 t + p, q)` of the WHOLE
  input arrays, clamped below by zero; the 20 tiles cover all 100000 rows (row `r` lies in tile `r / 5000`), so the
  output array ends as the dense layer of the arrays the region found, whatever those are.
-/
import proofs.«177049_j23175643530075_1_alg».proof.Proof.KernelIdealFrameP
import proofs.«177049_j23175643530075_1_alg».proof.Proof.SagePayload
import Idealize.ShloMosaic.Lib.Pipeline.Value

set_option maxRecDepth 16384

noncomputable section

namespace Cert.Sage.Region1

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

/-- A tile entry is the dense layer's entry at the tile's row `r` of the whole arrays, once the loaded blocks are
    known to hold row `r` of the features and of the neighbour means, column `q` of the weights and the bias. -/
theorem tile_entry (H HN : FVec Ideal S100000x128 .f32) (WS WN : FVec Ideal S128x128 .f32) (B : FVec Ideal S1x128 .f32)
    (x0 x1 : FVec Ideal S5000x128 .f32) (x2 x3 : FVec Ideal S128x128 .f32) (x4 : FVec Ideal S1x128 .f32)
    (r : Fin 100000) (p : Fin 5000) (q : Fin 128)
    (h0 : ∀ k : Fin 128, x0 (ix2 p k) = H (ix2 r k)) (h1 : ∀ k : Fin 128, x1 (ix2 p k) = HN (ix2 r k))
    (h2 : ∀ k : Fin 128, x2 (ix2 k q) = WS (ix2 k q)) (h3 : ∀ k : Fin 128, x3 (ix2 k q) = WN (ix2 k q))
    (h4 : x4 (ix2 (0 : Fin 1) q) = B (ix2 (0 : Fin 1) q)) :
    k1_pay1 (F := Ideal) x0 x1 x2 x3 x4 (ix2 p q) = denseRelu 100000 128 128 H HN WS WN B (ix2 r q) := by
  refine (pay1_apply x0 x1 x2 x3 x4 p q).trans ?_
  show _ = max (denseAt 100000 128 128 H HN WS WN B r q) 0
  unfold denseAt
  exact congrArg (fun z => max z 0) (congrArg₂ (· + ·) (congrArg₂ (· + ·) (Finset.sum_congr rfl fun k _ => by rw [h0 k, h2 k])
    (Finset.sum_congr rfl fun k _ => by rw [h1 k, h3 k])) h4)

theorem hz : (![0, 0] : Fin 2 → Nat) = fun _ => 0 := funext fun a => by fin_cases a <;> rfl

/-- The printed index maps over the grid: the two row-tiled inputs and the output sit at block `(t, 0)`, the
    weights and the bias at block `(0, 0)`. -/
theorem idx : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the dense layer of the arrays the region found. -/
theorem flushed (c : Dev nD) (t : Fin cfg1.N) :
    (dat1 (F := Ideal) V c).flushed 5 t = ((cfg1.win 5).blk t).view.read (Elt Ideal)
      (denseRelu 100000 128 128 (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx t
  have ht : t.val < 20 := by
    have h := t.isLt
    have hN : cfg1.N = 20 := N_1
    omega
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have hE : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = denseRelu 100000 128 128 (V c main_v22) (V c main_v34) (V c main_arg6) (V c main_arg7) (V c main_v35) (((cfg1.win 5).blk t).view.emb (ix2 p q))
  refine Eq.trans ?_ (congrArg (denseRelu 100000 128 128 (V c main_v22) (V c main_v34) (V c main_arg6) (V c main_arg7) (V c main_v35)) hE.symm)
  refine tile_entry (V c main_v22) (V c main_v34) (V c main_arg6) (V c main_arg7) (V c main_v35)
    (iblk1 V c 0 t) (iblk1 V c 1 t) (iblk1 V c 2 t) (iblk1 V c 3 t) (iblk1 V c 4 t)
    (⟨t.val * 5000 + p.val, hr⟩ : Fin 100000) p q ?_ ?_ ?_ ?_ ?_
  · intro k
    show V c main_v22 (((cfg1.win 0).blk t).view.emb (ix2 p k)) = V c main_v22 (ix2 (⟨t.val * 5000 + p.val, hr⟩ : Fin 100000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v34 (((cfg1.win 1).blk t).view.emb (ix2 p k)) = V c main_v34 (ix2 (⟨t.val * 5000 + p.val, hr⟩ : Fin 100000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k
    show V c main_arg6 (((cfg1.win 2).blk t).view.emb (ix2 k q)) = V c main_arg6 (ix2 k q)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k
    show V c main_arg7 (((cfg1.win 3).blk t).view.emb (ix2 k q)) = V c main_arg7 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v35 (((cfg1.win 4).blk t).view.emb (ix2 (0 : Fin 1) q)) = V c main_v35 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every index of the output array is in some point's block: row `r` is in tile `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e50, e51, -⟩ := idx (⟨(i 0).val / 5000, hlt⟩ : Fin cfg1.N)
  have e50' : win1_5.index (⟨(i 0).val / 5000, hlt⟩ : Fin cfg1.N) (0 : Fin 2) = (i 0).val / 5000 := e50
  refine ⟨⟨(i 0).val / 5000, hlt⟩, flush1_5 _, ?_⟩
  rw [mem_blk]
  intro a
  match a with
  | ⟨0, _⟩ =>
    show win1_5.index (⟨(i 0).val / 5000, hlt⟩ : Fin cfg1.N) (0 : Fin 2) * 5000 ≤ (i 0).val
      ∧ (i 0).val < win1_5.index (⟨(i 0).val / 5000, hlt⟩ : Fin cfg1.N) (0 : Fin 2) * 5000 + 5000
    omega
  | ⟨1, _⟩ =>
    show win1_5.index (⟨(i 0).val / 5000, hlt⟩ : Fin cfg1.N) (1 : Fin 2) * 128 ≤ (i 1).val
      ∧ (i 1).val < win1_5.index (⟨(i 0).val / 5000, hlt⟩ : Fin cfg1.N) (1 : Fin 2) * 128 + 128
    omega

/-- The region's output array when the region ends: the dense layer of the arrays the region found. -/
theorem final (c : Dev nD) :
    (dat1 (F := Ideal) V c).arrAt 5 cfg1.N
      = denseRelu 100000 128 128 (V c main_v22) (V c main_v34) (V c main_arg6) (V c main_arg7) (V c main_v35) :=
  (dat1 (F := Ideal) V c).arrAt_eq_of_cover 5 _ (fun t _ => flushed V c t) cover

end Cert.Sage.Region1

end
-- ==== Proof.SageRegion2.lean ====
/-
  The last layer's kernel region: what its output array holds when the region ends.

  The grid has 20 points; point `t` reads rows `5000 t … 5000 t + 4999` of the node features and of the
  neighbour means, both weight matrices and the bias row whole, and writes rows `5000 t … 5000 t + 4999` of the
  output.  A stored tile entry `(p, q)` is therefore the dense layer's entry `(5000 t + p, q)` of the WHOLE
  input arrays; the 20 tiles cover all 100000 rows (row `r` lies in tile `r / 5000`), so the
  output array ends as the dense layer of the arrays the region found, whatever those are.
-/
import proofs.«177049_j23175643530075_1_alg».proof.Proof.KernelIdealFrameP
import proofs.«177049_j23175643530075_1_alg».proof.Proof.SagePayload
import Idealize.ShloMosaic.Lib.Pipeline.Value

set_option maxRecDepth 16384

noncomputable section

namespace Cert.Sage.Region2

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

/-- A tile entry is the dense layer's entry at the tile's row `r` of the whole arrays, once the loaded blocks are
    known to hold row `r` of the features and of the neighbour means, column `q` of the weights and the bias. -/
theorem tile_entry (H HN : FVec Ideal S100000x128 .f32) (WS WN : FVec Ideal S128x64 .f32) (B : FVec Ideal S1x64 .f32)
    (x0 x1 : FVec Ideal S5000x128 .f32) (x2 x3 : FVec Ideal S128x64 .f32) (x4 : FVec Ideal S1x64 .f32)
    (r : Fin 100000) (p : Fin 5000) (q : Fin 64)
    (h0 : ∀ k : Fin 128, x0 (ix2 p k) = H (ix2 r k)) (h1 : ∀ k : Fin 128, x1 (ix2 p k) = HN (ix2 r k))
    (h2 : ∀ k : Fin 128, x2 (ix2 k q) = WS (ix2 k q)) (h3 : ∀ k : Fin 128, x3 (ix2 k q) = WN (ix2 k q))
    (h4 : x4 (ix2 (0 : Fin 1) q) = B (ix2 (0 : Fin 1) q)) :
    k2_pay1 (F := Ideal) x0 x1 x2 x3 x4 (ix2 p q) = dense 100000 128 64 H HN WS WN B (ix2 r q) := by
  refine (pay2_apply x0 x1 x2 x3 x4 p q).trans ?_
  show _ = denseAt 100000 128 64 H HN WS WN B r q
  unfold denseAt
  exact congrArg₂ (· + ·) (congrArg₂ (· + ·) (Finset.sum_congr rfl fun k _ => by rw [h0 k, h2 k])
    (Finset.sum_congr rfl fun k _ => by rw [h1 k, h3 k])) h4

theorem hz : (![0, 0] : Fin 2 → Nat) = fun _ => 0 := funext fun a => by fin_cases a <;> rfl

/-- The printed index maps over the grid: the two row-tiled inputs and the output sit at block `(t, 0)`, the
    weights and the bias at block `(0, 0)`. -/
theorem idx : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of the dense layer of the arrays the region found. -/
theorem flushed (c : Dev nD) (t : Fin cfg2.N) :
    (dat2 (F := Ideal) V c).flushed 5 t = ((cfg2.win 5).blk t).view.read (Elt Ideal)
      (dense 100000 128 64 (V c main_v36) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e50, e51, e00, e01, e10, e11, e20, e21, e30, e31, e40, e41⟩ := idx t
  have ht : t.val < 20 := by
    have h := t.isLt
    have hN : cfg2.N = 20 := N_2
    omega
  funext j
  obtain ⟨p, q, rfl⟩ : ∃ (p : Fin 5000) (q : Fin 64), j = ix2 p q := ⟨j 0, j 1, eq_ix2 j⟩
  have hp : p.val < 5000 := p.isLt
  have hr : t.val * 5000 + p.val < 100000 := by omega
  have hE : ((cfg2.win 5).blk t).view.emb (ix2 p q) = ix2 (⟨t.val * 5000 + p.val, hr⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 p q)
    = dense 100000 128 64 (V c main_v36) (V c main_v48) (V c main_arg9) (V c main_arg10) (V c main_v49) (((cfg2.win 5).blk t).view.emb (ix2 p q))
  refine Eq.trans ?_ (congrArg (dense 100000 128 64 (V c main_v36) (V c main_v48) (V c main_arg9) (V c main_arg10) (V c main_v49)) hE.symm)
  refine tile_entry (V c main_v36) (V c main_v48) (V c main_arg9) (V c main_arg10) (V c main_v49)
    (iblk2 V c 0 t) (iblk2 V c 1 t) (iblk2 V c 2 t) (iblk2 V c 3 t) (iblk2 V c 4 t)
    (⟨t.val * 5000 + p.val, hr⟩ : Fin 100000) p q ?_ ?_ ?_ ?_ ?_
  · intro k
    show V c main_v36 (((cfg2.win 0).blk t).view.emb (ix2 p k)) = V c main_v36 (ix2 (⟨t.val * 5000 + p.val, hr⟩ : Fin 100000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_v48 (((cfg2.win 1).blk t).view.emb (ix2 p k)) = V c main_v48 (ix2 (⟨t.val * 5000 + p.val, hr⟩ : Fin 100000) k)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · intro k
    show V c main_arg9 (((cfg2.win 2).blk t).view.emb (ix2 k q)) = V c main_arg9 (ix2 k q)
    refine congrArg _ (funext fun a => Fin.ext ?_)
    match a with
    | ⟨0, _⟩ => show win2_2.index t (0 : Fin 2) * 128 + 1 * k.val = k.val; omega
    | ⟨1, _⟩ => show win2_2.index t (1 : Fin 2) * 64 + 1 * q.val = q.val; omega
  · intro k
    show V c main_arg10 (((cfg2.win 3).blk t).view.emb (ix2 k q)) = V c main_arg10 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 64 + 1 * q.val = q.val; omega
  · show V c main_v49 (((cfg2.win 4).blk t).view.emb (ix2 (0 : Fin 1) q)) = V c main_v49 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega

/-- An index of the output array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Every index of the output array is in some point's block: row `r` is in tile `r / 5000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨e50, e51, -⟩ := idx (⟨(i 0).val / 5000, hlt⟩ : Fin cfg2.N)
  have e50' : win2_5.index (⟨(i 0).val / 5000, hlt⟩ : Fin cfg2.N) (0 : Fin 2) = (i 0).val / 5000 := e50
  refine ⟨⟨(i 0).val / 5000, hlt⟩, flush2_5 _, ?_⟩
  rw [mem_blk]
  intro a
  match a with
  | ⟨0, _⟩ =>
    show win2_5.index (⟨(i 0).val / 5000, hlt⟩ : Fin cfg2.N) (0 : Fin 2) * 5000 ≤ (i 0).val
      ∧ (i 0).val < win2_5.index (⟨(i 0).val / 5000, hlt⟩ : Fin cfg2.N) (0 : Fin 2) * 5000 + 5000
    omega
  | ⟨1, _⟩ =>
    show win2_5.index (⟨(i 0).val / 5000, hlt⟩ : Fin cfg2.N) (1 : Fin 2) * 64 ≤ (i 1).val
      ∧ (i 1).val < win2_5.index (⟨(i 0).val / 5000, hlt⟩ : Fin cfg2.N) (1 : Fin 2) * 64 + 64
    omega

/-- The region's output array when the region ends: the dense layer of the arrays the region found. -/
theorem final (c : Dev nD) :
    (dat2 (F := Ideal) V c).arrAt 5 cfg2.N
      = dense 100000 128 64 (V c main_v36) (V c main_v48) (V c main_arg9) (V c main_arg10) (V c main_v49) :=
  (dat2 (F := Ideal) V c).arrAt_eq_of_cover 5 _ (fun t _ => flushed V c t) cover

end Cert.Sage.Region2

end
-- ==== Proof.SageHost.lean ====
/-
  The host side of a layer: neighbour sums, degrees, and the neighbour mean.

  `nbrSum h src dst` gathers the feature row of every edge's source node and adds it into the row of the edge's
  destination node; `degSum dst` adds one per edge into the destination's slot.  Neither is opened here: both
  programs apply the same two operations to the same operands, so they are carried as functions.  What is read at
  an entry is the scaling: the kernel program multiplies the sums by the column `1 / max deg 1`, laid out as
  [100000, 1] and broadcast along the features, and that is the quotient by `max deg 1`, entry by entry, because a
  degree clamped below by one is never zero.
-/
import proofs.«177049_j23175643530075_1_alg».proof.Proof.Gen.KernelIdeal
import proofs.«177049_j23175643530075_1_alg».proof.Proof.SageAlgebra
import Idealize.ShloMosaic.Lib.Pipeline.Value
import Idealize.ShloMosaic.Lib.IdealHost

noncomputable section

namespace Cert.Sage

open Idealize.ShloMosaic Idealize.ShloMosaic.ValueIdx Cert.KernelIdeal Cert.KernelIdeal.Facts₀

/-- Every edge's source node as a start index into the node axis, a negative node number counted from the end. -/
def srcStart (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Every edge's destination node as a scatter index. -/
def dstStart (dst : IVec S1600000 32) : IVec S1600000x1 32 :=
  broadcastInDim S1600000x1 ![0] bcast_S1600000_S1600000x1_0 dst

/-- The sum, into every node's row, of the feature rows of the sources of its incoming edges. -/
def nbrSum (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstStart dst)
    (Host.gather gather_S100000x128_S1600000x1_S1600000x128_1_0_n_n_0_1_1128 h (srcStart src))

/-- The number of incoming edges of every node, as a sum of ones. -/
def degSum (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (dstStart dst)
    (broadcastInDim S1600000 ![] bcast_S_S1600000 (constant (F := Ideal) S_ .f32 0x3F800000#32))

/-- The reciprocal of the clamped degree as a column [100000, 1]. -/
def invDeg (dst : IVec S1600000 32) : FVec Ideal S100000x1 .f32 :=
  shapeCast S100000x1
    (Host.divf (broadcastInDim S100000 ![] bcast_S_S100000 (constant (F := Ideal) S_ .f32 0x3F800000#32))
      (maximumf (degSum dst) (broadcastInDim S100000 ![] bcast_S_S100000 (constant (F := Ideal) S_ .f32 0x3F800000#32))))
    shapeCasts_S100000_S100000x1

/-- Neighbour sums times a column broadcast along the features. -/
def scaleBy (h : FVec Ideal S100000x128 .f32) (src dst : IVec S1600000 32) (col : FVec Ideal S100000x1 .f32) :
    FVec Ideal S100000x128 .f32 :=
  mulf (nbrSum h src dst) (broadcastInDim S100000x128 ![0, 1] bcast_S100000x1_S100000x128_0_1 col)

/-- The kernel program's neighbour mean: the sums times the reciprocal column. -/
def meanMul (h : FVec Ideal S100000x128 .f32) (src dst : IVec S1600000 32) : FVec Ideal S100000x128 .f32 :=
  scaleBy h src dst (invDeg dst)

/-- The reciprocal column at row `p` is one over the clamped degree of node `p`. -/
theorem invDeg_apply (dst : IVec S1600000 32) (p : Fin 100000) :
    invDeg dst (ix2 p (0 : Fin 1)) = Ideal.div 1 (max (degSum dst (ix1 p)) 1) := by
  unfold invDeg
  generalize degSum dst = D
  refine (shapeCast_apply _ shapeCasts_S100000_S100000x1 (ix2 p (0 : Fin 1)) (ix1 p) (by
    rw [Shape.rowMajor_val_two, Shape.rowMajor_val_one]
    show p.val = p.val * 1 + 0
    omega)).trans ?_
  rw [hostDivf_apply, maximumf_apply, broadcastInDim_scalar_apply, constant_apply, Ideal.ofBits_one_f32]

/-- The kernel program's neighbour mean at `(p, q)`: the neighbour sum over the clamped degree. -/
theorem meanMul_apply (h : FVec Ideal S100000x128 .f32) (src dst : IVec S1600000 32) (p : Fin 100000) (q : Fin 128) :
    meanMul h src dst (ix2 p q) = Ideal.div (nbrSum h src dst (ix2 p q)) (max (degSum dst (ix1 p)) 1) := by
  unfold meanMul scaleBy
  have hcol := invDeg_apply dst p
  generalize invDeg dst = col at hcol ⊢
  generalize degSum dst = D at hcol ⊢
  generalize nbrSum h src dst = A
  rw [mulf_apply, broadcastInDim_apply ![0, 1] bcast_S100000x1_S100000x128_0_1 col (ix2 p q) (ix2 p (0 : Fin 1)) (fun a => by
    match a with
    | ⟨0, _⟩ => show p.val = if (100000 : Nat) = 1 then 0 else p.val; rw [if_neg (by decide)]
    | ⟨1, _⟩ => show 0 = if (1 : Nat) = 1 then 0 else q.val; rw [if_pos rfl]), hcol]
  exact scale_eq _ _

/-- One rectified layer, as a function of the arrays it reads: the dense part of the features and the neighbour
    means, the bias reshaped to one row, then the rectifier. -/
def layerRelu (h : FVec Ideal S100000x128 .f32) (src dst : IVec S1600000 32) (ws wn : FVec Ideal S128x128 .f32)
    (b : FVec Ideal S128 .f32) : FVec Ideal S100000x128 .f32 :=
  denseRelu 100000 128 128 h (meanMul h src dst) ws wn (shapeCast S1x128 b shapeCasts_S128_S1x128)

/-- The last layer: 64 output features, no rectifier. -/
def layerLast (h : FVec Ideal S100000x128 .f32) (src dst : IVec S1600000 32) (ws wn : FVec Ideal S128x64 .f32)
    (b : FVec Ideal S64 .f32) : FVec Ideal S100000x64 .f32 :=
  dense 100000 128 64 h (meanMul h src dst) ws wn (shapeCast S1x64 b shapeCasts_S64_S1x64)

/-- The three layers, one after the other, over the same graph. -/
def net (x : FVec Ideal S100000x128 .f32) (src dst : IVec S1600000 32)
    (w1s w1n : FVec Ideal S128x128 .f32) (b1 : FVec Ideal S128 .f32)
    (w2s w2n : FVec Ideal S128x128 .f32) (b2 : FVec Ideal S128 .f32)
    (w3s w3n : FVec Ideal S128x64 .f32) (b3 : FVec Ideal S64 .f32) : FVec Ideal S100000x64 .f32 :=
  layerLast (layerRelu (layerRelu x src dst w1s w1n b1) src dst w2s w2n b2) src dst w3s w3n b3

end Cert.Sage

end
-- ==== Proof.SageEntry0.lean ====
/-
  What the first kernel region finds, and what the first host stretch leaves for later.

  The first stretch of host operations computes, from the arguments as launched, the reciprocal degree column,
  the neighbour means of the input features and the first bias as one row; it writes no argument.  Read after
  that stretch, each of the first region's input arrays is therefore an argument as launched or one of the shared
  host functions of the arguments.
-/
import proofs.«177049_j23175643530075_1_alg».proof.Proof.KernelIdealFrameP
import proofs.«177049_j23175643530075_1_alg».proof.Proof.SageHost
import Idealize.ShloMosaic.Lib.StableHlo.Run

set_option maxRecDepth 16384

noncomputable section

namespace Cert.Sage.Entry0

open Idealize.ShloMosaic Idealize.ShloMosaic.TcCoe Idealize.SL.Sem Idealize.ShloMosaic.StableHlo
open Cert.KernelIdeal Cert.KernelIdeal.GenP Cert.Sage

variable (m : (ℓ : Loc nD τ sig) → Buf (Elt Ideal) ℓ) (ρ : Dev nD → PrngReg)

/-- The first stretch leaves `main_arg0` as launched. -/
theorem W1_main_arg0 (c : Dev nD) : W1 m ρ c (Proc.devRef .tc main_arg0) = m ((c : Thread nD τ).loc main_arg0) := by
  show StableHlo.after hostOps0 (W0 m ρ c) (Proc.devRef .tc main_arg0) = _
  after_results
  all_goals rfl

/-- The first stretch leaves `main_arg1` as launched. -/
theorem W1_main_arg1 (c : Dev nD) : W1 m ρ c (Proc.devRef .tc main_arg1) = m ((c : Thread nD τ).loc main_arg1) := by
  show StableHlo.after hostOps0 (W0 m ρ c) (Proc.devRef .tc main_arg1) = _
  after_results
  all_goals rfl

/-- The first stretch leaves `main_arg2` as launched. -/
theorem W1_main_arg2 (c : Dev nD) : W1 m ρ c (Proc.devRef .tc main_arg2) = m ((c : Thread nD τ).loc main_arg2) := by
  show StableHlo.after hostOps0 (W0 m ρ c) (Proc.devRef .tc main_arg2) = _
  after_results
  all_goals rfl

/-- The first stretch leaves `main_arg3` as launched. -/
theorem W1_main_arg3 (c : Dev nD) : W1 m ρ c (Proc.devRef .tc main_arg3) = m ((c : Thread nD τ).loc main_arg3) := by
  show StableHlo.after hostOps0 (W0 m ρ c) (Proc.devRef .tc main_arg3) = _
  after_results
  all_goals rfl

/-- The first stretch leaves `main_arg4` as launched. -/
theorem W1_main_arg4 (c : Dev nD) : W1 m ρ c (Proc.devRef .tc main_arg4) = m ((c : Thread nD τ).loc main_arg4) := by
  show StableHlo.after hostOps0 (W0 m ρ c) (Proc.devRef .tc main_arg4) = _
  after_results
  all_goals rfl

/-- The first stretch leaves `main_arg6` as launched. -/
theorem W1_main_arg6 (c : Dev nD) : W1 m ρ c (Proc.devRef .tc main_arg6) = m ((c : Thread nD τ).loc main_arg6) := by
  show StableHlo.after hostOps0 (W0 m ρ c) (Proc.devRef .tc main_arg6) = _
  after_results
  all_goals rfl

/-- The first stretch leaves `main_arg7` as launched. -/
theorem W1_main_arg7 (c : Dev nD) : W1 m ρ c (Proc.devRef .tc main_arg7) = m ((c : Thread nD τ).loc main_arg7) := by
  show StableHlo.after hostOps0 (W0 m ρ c) (Proc.devRef .tc main_arg7) = _
  after_results
  all_goals rfl

/-- The first stretch leaves `main_arg8` as launched. -/
theorem W1_main_arg8 (c : Dev nD) : W1 m ρ c (Proc.devRef .tc main_arg8) = m ((c : Thread nD τ).loc main_arg8) := by
  show StableHlo.after hostOps0 (W0 m ρ c) (Proc.devRef .tc main_arg8) = _
  after_results
  all_goals rfl

/-- The first stretch leaves `main_arg9` as launched. -/
theorem W1_main_arg9 (c : Dev nD) : W1 m ρ c (Proc.devRef .tc main_arg9) = m ((c : Thread nD τ).loc main_arg9) := by
  show StableHlo.after hostOps0 (W0 m ρ c) (Proc.devRef .tc main_arg9) = _
  after_results
  all_goals rfl

/-- The first stretch leaves `main_arg10` as launched. -/
theorem W1_main_arg10 (c : Dev nD) : W1 m ρ c (Proc.devRef .tc main_arg10) = m ((c : Thread nD τ).loc main_arg10) := by
  show StableHlo.after hostOps0 (W0 m ρ c) (Proc.devRef .tc main_arg10) = _
  after_results
  all_goals rfl

/-- The first stretch leaves `main_arg11` as launched. -/
theorem W1_main_arg11 (c : Dev nD) : W1 m ρ c (Proc.devRef .tc main_arg11) = m ((c : Thread nD τ).loc main_arg11) := by
  show StableHlo.after hostOps0 (W0 m ρ c) (Proc.devRef .tc main_arg11) = _
  after_results
  all_goals rfl

set_option maxHeartbeats 2000000 in
/-- The reciprocal degree column after the first stretch. -/
theorem W1_main_v8 (c : Dev nD) : W1 m ρ c (Proc.devRef .tc main_v8) = invDeg (m ((c : Thread nD τ).loc main_arg2)) := by
  show StableHlo.after hostOps0 (W0 m ρ c) (Proc.devRef .tc main_v8) = _
  after_results
  unfold invDeg degSum dstStart
  all_goals rfl

/-- The first bias as one row. -/
theorem W1_main_v21 (c : Dev nD) : W1 m ρ c (Proc.devRef .tc main_v21) = shapeCast S1x128 (m ((c : Thread nD τ).loc main_arg5)) Facts₀.shapeCasts_S128_S1x128 := by
  show StableHlo.after hostOps0 (W0 m ρ c) (Proc.devRef .tc main_v21) = _
  after_results
  all_goals rfl

set_option maxHeartbeats 8000000 in
/-- The neighbour means of the input features. -/
theorem W1_main_v20 (c : Dev nD) : W1 m ρ c (Proc.devRef .tc main_v20) = meanMul (m ((c : Thread nD τ).loc main_arg0)) (m ((c : Thread nD τ).loc main_arg1)) (m ((c : Thread nD τ).loc main_arg2)) := by
  show StableHlo.after hostOps0 (W0 m ρ c) (Proc.devRef .tc main_v20) = _
  after_results
  unfold meanMul scaleBy nbrSum invDeg degSum dstStart srcStart
  all_goals rfl

end Cert.Sage.Entry0

end
-- ==== Proof.SageEntry1.lean ====
/-
  What the second kernel region finds.

  The second stretch of host operations reads the first region's output, the edge lists and the reciprocal degree
  column, and computes the neighbour means of that output and the second bias as one row; it writes nothing
  else.  Read after that stretch, each array is what the first region left (or a buffer untouched since the first
  stretch), or the shared scaling function of such values.
-/
import proofs.«177049_j23175643530075_1_alg».proof.Proof.KernelIdealFrameP
import proofs.«177049_j23175643530075_1_alg».proof.Proof.SageHost
import Idealize.ShloMosaic.Lib.StableHlo.Run

set_option maxRecDepth 16384

noncomputable section

namespace Cert.Sage.Entry1

open Idealize.ShloMosaic Idealize.ShloMosaic.TcCoe Idealize.SL.Sem Idealize.ShloMosaic.StableHlo
open Cert.KernelIdeal Cert.KernelIdeal.GenP Cert.Sage

variable (m : (ℓ : Loc nD τ sig) → Buf (Elt Ideal) ℓ) (ρ : Dev nD → PrngReg)

/-- The second stretch leaves `main_v22` as the first region left it. -/
theorem W3_main_v22 (c : Dev nD) : W3 m ρ c (Proc.devRef .tc main_v22) = W2 m ρ c (Proc.devRef .tc main_v22) := by
  show StableHlo.after hostOps1 (W2 m ρ c) (Proc.devRef .tc main_v22) = _
  after_results
  all_goals rfl

/-- The second stretch leaves `main_arg1` as the first region left it. -/
theorem W3_main_arg1 (c : Dev nD) : W3 m ρ c (Proc.devRef .tc main_arg1) = W2 m ρ c (Proc.devRef .tc main_arg1) := by
  show StableHlo.after hostOps1 (W2 m ρ c) (Proc.devRef .tc main_arg1) = _
  after_results
  all_goals rfl

/-- The second stretch leaves `main_arg2` as the first region left it. -/
theorem W3_main_arg2 (c : Dev nD) : W3 m ρ c (Proc.devRef .tc main_arg2) = W2 m ρ c (Proc.devRef .tc main_arg2) := by
  show StableHlo.after hostOps1 (W2 m ρ c) (Proc.devRef .tc main_arg2) = _
  after_results
  all_goals rfl

/-- The second stretch leaves `main_v8` as the first region left it. -/
theorem W3_main_v8 (c : Dev nD) : W3 m ρ c (Proc.devRef .tc main_v8) = W2 m ρ c (Proc.devRef .tc main_v8) := by
  show StableHlo.after hostOps1 (W2 m ρ c) (Proc.devRef .tc main_v8) = _
  after_results
  all_goals rfl

/-- The second stretch leaves `main_arg6` as the first region left it. -/
theorem W3_main_arg6 (c : Dev nD) : W3 m ρ c (Proc.devRef .tc main_arg6) = W2 m ρ c (Proc.devRef .tc main_arg6) := by
  show StableHlo.after hostOps1 (W2 m ρ c) (Proc.devRef .tc main_arg6) = _
  after_results
  all_goals rfl

/-- The second stretch leaves `main_arg7` as the first region left it. -/
theorem W3_main_arg7 (c : Dev nD) : W3 m ρ c (Proc.devRef .tc main_arg7) = W2 m ρ c (Proc.devRef .tc main_arg7) := by
  show StableHlo.after hostOps1 (W2 m ρ c) (Proc.devRef .tc main_arg7) = _
  after_results
  all_goals rfl

/-- The second stretch leaves `main_arg9` as the first region left it. -/
theorem W3_main_arg9 (c : Dev nD) : W3 m ρ c (Proc.devRef .tc main_arg9) = W2 m ρ c (Proc.devRef .tc main_arg9) := by
  show StableHlo.after hostOps1 (W2 m ρ c) (Proc.devRef .tc main_arg9) = _
  after_results
  all_goals rfl

/-- The second stretch leaves `main_arg10` as the first region left it. -/
theorem W3_main_arg10 (c : Dev nD) : W3 m ρ c (Proc.devRef .tc main_arg10) = W2 m ρ c (Proc.devRef .tc main_arg10) := by
  show StableHlo.after hostOps1 (W2 m ρ c) (Proc.devRef .tc main_arg10) = _
  after_results
  all_goals rfl

/-- The second stretch leaves `main_arg11` as the first region left it. -/
theorem W3_main_arg11 (c : Dev nD) : W3 m ρ c (Proc.devRef .tc main_arg11) = W2 m ρ c (Proc.devRef .tc main_arg11) := by
  show StableHlo.after hostOps1 (W2 m ρ c) (Proc.devRef .tc main_arg11) = _
  after_results
  all_goals rfl

/-- The second bias as one row. -/
theorem W3_main_v35 (c : Dev nD) : W3 m ρ c (Proc.devRef .tc main_v35) = shapeCast S1x128 (W2 m ρ c (Proc.devRef .tc main_arg8) : FVec Ideal S128 .f32) Facts₀.shapeCasts_S128_S1x128 := by
  show StableHlo.after hostOps1 (W2 m ρ c) (Proc.devRef .tc main_v35) = _
  after_results
  all_goals rfl

set_option maxHeartbeats 8000000 in
/-- The neighbour means of the first region's output. -/
theorem W3_main_v34 (c : Dev nD) : W3 m ρ c (Proc.devRef .tc main_v34) = scaleBy (W2 m ρ c (Proc.devRef .tc main_v22) : FVec Ideal S100000x128 .f32) (W2 m ρ c (Proc.devRef .tc main_arg1) : IVec S1600000 32) (W2 m ρ c (Proc.devRef .tc main_arg2) : IVec S1600000 32) (W2 m ρ c (Proc.devRef .tc main_v8) : FVec Ideal S100000x1 .f32) := by
  show StableHlo.after hostOps1 (W2 m ρ c) (Proc.devRef .tc main_v34) = _
  after_results
  unfold scaleBy nbrSum dstStart srcStart
  all_goals rfl

end Cert.Sage.Entry1

end
-- ==== Proof.SageEntry2.lean ====
/-
  What the last kernel region finds.

  The third stretch of host operations reads the second region's output, the edge lists and the reciprocal degree
  column, and computes the neighbour means of that output and the last bias as one row; it writes nothing else.
-/
import proofs.«177049_j23175643530075_1_alg».proof.Proof.KernelIdealFrameP
import proofs.«177049_j23175643530075_1_alg».proof.Proof.SageHost
import Idealize.ShloMosaic.Lib.StableHlo.Run

set_option maxRecDepth 16384

noncomputable section

namespace Cert.Sage.Entry2

open Idealize.ShloMosaic Idealize.ShloMosaic.TcCoe Idealize.SL.Sem Idealize.ShloMosaic.StableHlo
open Cert.KernelIdeal Cert.KernelIdeal.GenP Cert.Sage

variable (m : (ℓ : Loc nD τ sig) → Buf (Elt Ideal) ℓ) (ρ : Dev nD → PrngReg)

/-- The third stretch leaves `main_v36` as the second region left it. -/
theorem W5_main_v36 (c : Dev nD) : W5 m ρ c (Proc.devRef .tc main_v36) = W4 m ρ c (Proc.devRef .tc main_v36) := by
  show StableHlo.after hostOps2 (W4 m ρ c) (Proc.devRef .tc main_v36) = _
  after_results
  all_goals rfl

/-- The third stretch leaves `main_arg9` as the second region left it. -/
theorem W5_main_arg9 (c : Dev nD) : W5 m ρ c (Proc.devRef .tc main_arg9) = W4 m ρ c (Proc.devRef .tc main_arg9) := by
  show StableHlo.after hostOps2 (W4 m ρ c) (Proc.devRef .tc main_arg9) = _
  after_results
  all_goals rfl

/-- The third stretch leaves `main_arg10` as the second region left it. -/
theorem W5_main_arg10 (c : Dev nD) : W5 m ρ c (Proc.devRef .tc main_arg10) = W4 m ρ c (Proc.devRef .tc main_arg10) := by
  show StableHlo.after hostOps2 (W4 m ρ c) (Proc.devRef .tc main_arg10) = _
  after_results
  all_goals rfl

/-- The last bias as one row. -/
theorem W5_main_v49 (c : Dev nD) : W5 m ρ c (Proc.devRef .tc main_v49) = shapeCast S1x64 (W4 m ρ c (Proc.devRef .tc main_arg11) : FVec Ideal S64 .f32) Facts₀.shapeCasts_S64_S1x64 := by
  show StableHlo.after hostOps2 (W4 m ρ c) (Proc.devRef .tc main_v49) = _
  after_results
  all_goals rfl

set_option maxHeartbeats 8000000 in
/-- The neighbour means of the second region's output. -/
theorem W5_main_v48 (c : Dev nD) : W5 m ρ c (Proc.devRef .tc main_v48) = scaleBy (W4 m ρ c (Proc.devRef .tc main_v36) : FVec Ideal S100000x128 .f32) (W4 m ρ c (Proc.devRef .tc main_arg1) : IVec S1600000 32) (W4 m ρ c (Proc.devRef .tc main_arg2) : IVec S1600000 32) (W4 m ρ c (Proc.devRef .tc main_v8) : FVec Ideal S100000x1 .f32) := by
  show StableHlo.after hostOps2 (W4 m ρ c) (Proc.devRef .tc main_v48) = _
  after_results
  unfold scaleBy nbrSum dstStart srcStart
  all_goals rfl

end Cert.Sage.Entry2

end
-- ==== Proof.SageKernelValue.lean ====
/-
  The idealized kernel program's result is the shared network function of its arguments.

  Region by region: the first region finds the arguments as launched, the neighbour means of the input features
  and the first bias row, so its output is the first layer; the second stretch of host operations leaves that
  output and the graph untouched and computes the neighbour means of the output, so the second region's output
  is the second layer of the first; likewise the last.  Each step joins three facts: what the host stretch
  leaves (read off the stretch), what the region's output array ends as (the dense layer of what the region
  finds), and that buffers no segment writes are carried along unchanged.
-/
import proofs.«177049_j23175643530075_1_alg».proof.Proof.SageRun
import proofs.«177049_j23175643530075_1_alg».proof.Proof.SageRegion0
import proofs.«177049_j23175643530075_1_alg».proof.Proof.SageRegion1
import proofs.«177049_j23175643530075_1_alg».proof.Proof.SageRegion2
import proofs.«177049_j23175643530075_1_alg».proof.Proof.SageEntry0
import proofs.«177049_j23175643530075_1_alg».proof.Proof.SageEntry1
import proofs.«177049_j23175643530075_1_alg».proof.Proof.SageEntry2

set_option maxRecDepth 16384

noncomputable section

namespace Cert.Sage.KernelValue

open Idealize.ShloMosaic Idealize.ShloMosaic.TcCoe Idealize.SL.Sem
open Cert.KernelIdeal Cert.KernelIdeal.GenP Cert.Sage

variable (m : (ℓ : Loc nD τ sig) → Buf (Elt Ideal) ℓ) (ρ : Dev nD → PrngReg)

/-! ## Buffers the first region does not write, after it -/
theorem W2_main_arg1 (c : Dev nD) : W2 m ρ c (Proc.devRef .tc main_arg1) = m ((c : Thread nD τ).loc main_arg1) :=
  (W2_of_ne m ρ c main_arg1 (by decide)).trans (Entry0.W1_main_arg1 m ρ c)
theorem W2_main_arg2 (c : Dev nD) : W2 m ρ c (Proc.devRef .tc main_arg2) = m ((c : Thread nD τ).loc main_arg2) :=
  (W2_of_ne m ρ c main_arg2 (by decide)).trans (Entry0.W1_main_arg2 m ρ c)
theorem W2_main_arg6 (c : Dev nD) : W2 m ρ c (Proc.devRef .tc main_arg6) = m ((c : Thread nD τ).loc main_arg6) :=
  (W2_of_ne m ρ c main_arg6 (by decide)).trans (Entry0.W1_main_arg6 m ρ c)
theorem W2_main_arg7 (c : Dev nD) : W2 m ρ c (Proc.devRef .tc main_arg7) = m ((c : Thread nD τ).loc main_arg7) :=
  (W2_of_ne m ρ c main_arg7 (by decide)).trans (Entry0.W1_main_arg7 m ρ c)
theorem W2_main_arg8 (c : Dev nD) : W2 m ρ c (Proc.devRef .tc main_arg8) = m ((c : Thread nD τ).loc main_arg8) :=
  (W2_of_ne m ρ c main_arg8 (by decide)).trans (Entry0.W1_main_arg8 m ρ c)
theorem W2_main_arg9 (c : Dev nD) : W2 m ρ c (Proc.devRef .tc main_arg9) = m ((c : Thread nD τ).loc main_arg9) :=
  (W2_of_ne m ρ c main_arg9 (by decide)).trans (Entry0.W1_main_arg9 m ρ c)
theorem W2_main_arg10 (c : Dev nD) : W2 m ρ c (Proc.devRef .tc main_arg10) = m ((c : Thread nD τ).loc main_arg10) :=
  (W2_of_ne m ρ c main_arg10 (by decide)).trans (Entry0.W1_main_arg10 m ρ c)
theorem W2_main_arg11 (c : Dev nD) : W2 m ρ c (Proc.devRef .tc main_arg11) = m ((c : Thread nD τ).loc main_arg11) :=
  (W2_of_ne m ρ c main_arg11 (by decide)).trans (Entry0.W1_main_arg11 m ρ c)
theorem W2_main_v8 (c : Dev nD) : W2 m ρ c (Proc.devRef .tc main_v8) = invDeg (m ((c : Thread nD τ).loc main_arg2)) :=
  (W2_of_ne m ρ c main_v8 (by decide)).trans (Entry0.W1_main_v8 m ρ c)

/-- The first region's output is the first layer of the arguments. -/
theorem out1 (c : Dev nD) : W2 m ρ c (Proc.devRef .tc main_v22) = layerRelu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 5).trans ((Region0.final (V1 m ρ) c).trans
    (congr (congr (congr (congr (congrArg (denseRelu 100000 128 128) (Entry0.W1_main_arg0 m ρ c)) (Entry0.W1_main_v20 m ρ c))
      (Entry0.W1_main_arg3 m ρ c)) (Entry0.W1_main_arg4 m ρ c)) (Entry0.W1_main_v21 m ρ c)))

/-! ## Buffers the second region does not write, after it -/
theorem W4_main_arg1 (c : Dev nD) : W4 m ρ c (Proc.devRef .tc main_arg1) = m ((c : Thread nD τ).loc main_arg1) :=
  (W4_of_ne m ρ c main_arg1 (by decide)).trans ((Entry1.W3_main_arg1 m ρ c).trans (W2_main_arg1 m ρ c))
theorem W4_main_arg2 (c : Dev nD) : W4 m ρ c (Proc.devRef .tc main_arg2) = m ((c : Thread nD τ).loc main_arg2) :=
  (W4_of_ne m ρ c main_arg2 (by decide)).trans ((Entry1.W3_main_arg2 m ρ c).trans (W2_main_arg2 m ρ c))
theorem W4_main_arg9 (c : Dev nD) : W4 m ρ c (Proc.devRef .tc main_arg9) = m ((c : Thread nD τ).loc main_arg9) :=
  (W4_of_ne m ρ c main_arg9 (by decide)).trans ((Entry1.W3_main_arg9 m ρ c).trans (W2_main_arg9 m ρ c))
theorem W4_main_arg10 (c : Dev nD) : W4 m ρ c (Proc.devRef .tc main_arg10) = m ((c : Thread nD τ).loc main_arg10) :=
  (W4_of_ne m ρ c main_arg10 (by decide)).trans ((Entry1.W3_main_arg10 m ρ c).trans (W2_main_arg10 m ρ c))
theorem W4_main_arg11 (c : Dev nD) : W4 m ρ c (Proc.devRef .tc main_arg11) = m ((c : Thread nD τ).loc main_arg11) :=
  (W4_of_ne m ρ c main_arg11 (by decide)).trans ((Entry1.W3_main_arg11 m ρ c).trans (W2_main_arg11 m ρ c))
theorem W4_main_v8 (c : Dev nD) : W4 m ρ c (Proc.devRef .tc main_v8) = invDeg (m ((c : Thread nD τ).loc main_arg2)) :=
  (W4_of_ne m ρ c main_v8 (by decide)).trans ((Entry1.W3_main_v8 m ρ c).trans (W2_main_v8 m ρ c))

/-- The second region's output is the second layer of the first layer's output. -/
theorem out2 (c : Dev nD) : W4 m ρ c (Proc.devRef .tc main_v36) = layerRelu (layerRelu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) :=
  (W4_arr m ρ c 5).trans ((Region1.final (V3 m ρ) c).trans
    (congr (congr (congr (congr (congrArg (denseRelu 100000 128 128) ((Entry1.W3_main_v22 m ρ c).trans (out1 m ρ c)))
      ((Entry1.W3_main_v34 m ρ c).trans
        (congr (congr (congr (congrArg scaleBy (out1 m ρ c)) (W2_main_arg1 m ρ c)) (W2_main_arg2 m ρ c)) (W2_main_v8 m ρ c))))
      ((Entry1.W3_main_arg6 m ρ c).trans (W2_main_arg6 m ρ c))) ((Entry1.W3_main_arg7 m ρ c).trans (W2_main_arg7 m ρ c)))
      ((Entry1.W3_main_v35 m ρ c).trans (congrArg (fun b => shapeCast S1x128 b Facts₀.shapeCasts_S128_S1x128) (W2_main_arg8 m ρ c)))))

/-- The last region's output, the program's result, is the network function of the arguments. -/
theorem result_eq_net (c : Dev nD) : W6 m ρ c (Proc.devRef .tc main_v50) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W6_arr m ρ c 5).trans ((Region2.final (V5 m ρ) c).trans
    (congr (congr (congr (congr (congrArg (dense 100000 128 64) ((Entry2.W5_main_v36 m ρ c).trans (out2 m ρ c)))
      ((Entry2.W5_main_v48 m ρ c).trans
        (congr (congr (congr (congrArg scaleBy (out2 m ρ c)) (W4_main_arg1 m ρ c)) (W4_main_arg2 m ρ c)) (W4_main_v8 m ρ c))))
      ((Entry2.W5_main_arg9 m ρ c).trans (W4_main_arg9 m ρ c))) ((Entry2.W5_main_arg10 m ρ c).trans (W4_main_arg10 m ρ c)))
      ((Entry2.W5_main_v49 m ρ c).trans (congrArg (fun b => shapeCast S1x64 b Facts₀.shapeCasts_S64_S1x64) (W4_main_arg11 m ρ c)))))

/-- The idealized kernel program runs to the end with its result at the network function of the arguments and
    every argument as launched. -/
theorem run : θ_run defs (onTc (τ := τ) (main (F := Ideal))) ⟨m, fun _ => 0, ρ⟩ (fun r => ∀ c : Dev nD,
      r.2.mem ((c.tc : Thread nD τ).loc main_v50) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq_net m ρ c), (h c).2⟩) (Run.run_result m ρ)

end Cert.Sage.KernelValue

end
-- ==== Proof.SageRef.lean ====
/-
  The reference program, layer by layer, is the shared network function.

  Each layer of the reference computes the neighbour sums and the degree sums with the same two operations on the
  same operands as the kernel program (so they are the shared functions, by unfolding names only), divides the
  sums by the clamped degree broadcast along the features, and adds the two matrix products and the bias row,
  followed by the rectifier in the first two layers.  Read at an entry `(p, q)`, that is the dense layer's entry
  with the quotient mean; and the quotient by a clamped degree is the product with its reciprocal, which is how
  the shared layer function spells the mean.
-/
import proofs.«177049_j23175643530075_1_alg».proof.Proof.Gen.ReferenceIdeal.Read
import proofs.«177049_j23175643530075_1_alg».proof.Proof.SageHost
import Idealize.ShloMosaic.Lib.ValueLayout

noncomputable section

namespace Cert.Sage.Ref

open Idealize.ShloMosaic Idealize.ShloMosaic.ValueIdx Cert.ReferenceIdeal.Read Cert.Sage
open Cert.KernelIdeal (S100000x128 S1600000 S128x128 S128 S128x64 S64 S1x128 S1x64 S100000 S100000x64)

/-! ## Layer 1 of the reference -/

/-- The reference's neighbour sums of layer 1 are the shared function of its input features. -/
theorem nbrSum_ref1 (x0 : FVec Ideal S100000x128 .f32) (x1 x2 : IVec S1600000 32) :
    val_main_v13 (F := Ideal) x0 x1 x2 = nbrSum (x0) x1 x2 := by
  unfold val_main_v13 val_main_v12 val_main_v11 val_main_cst_2 val_main_v10 val_main_v9 val_main_v8 val_main_v7 val_main_v6 val_main_c_1 val_main_v5 val_main_v4 val_main_c nbrSum dstStart srcStart
  rfl

/-- Its degree sums are the shared function of the destinations. -/
theorem degSum_ref1 (x2 : IVec S1600000 32) : val_main_v3 (F := Ideal) x2 = degSum x2 := by
  unfold val_main_v3 val_main_v2 val_main_v1 val_main_cst_0 val_main_v0 val_main_cst degSum dstStart
  rfl

/-- The reference's neighbour mean of layer 1 at `(p, k)`: the neighbour sum over the clamped degree of node `p`. -/
theorem mean_ref1 (x0 : FVec Ideal S100000x128 .f32) (x1 x2 : IVec S1600000 32) (p : Fin 100000) (k : Fin 128) :
    val_main_v18 (F := Ideal) x0 x1 x2 (ix2 p k)
      = Ideal.div (val_main_v13 (F := Ideal) x0 x1 x2 (ix2 p k)) (max (val_main_v3 (F := Ideal) x2 (ix1 p)) 1) := by
  rw [val_main_v18_apply, val_main_v17_apply, val_main_v16_apply, val_main_v15_apply, val_main_v14_apply, val_main_cst_3_apply]
  have e : idx_main_v16 (idx_main_v17 (ix2 p k)) = ix1 p := funext fun a => by match a with | ⟨0, _⟩ => rfl
  rw [e, Ideal.hostDivf_def, Ideal.maximumf_def, Ideal.ofBits_def, Ideal.ofBits_one_f32]

/-- Layer 1 of the reference is the shared layer function of its input features, the graph and its parameters. -/
theorem layer_ref1 (x0 : FVec Ideal S100000x128 .f32) (x1 x2 : IVec S1600000 32) (x3 x4 : FVec Ideal S128x128 .f32) (x5 : FVec Ideal S128 .f32) :
    val_main_v25 (F := Ideal) x0 x1 x2 x3 x4 x5 = layerRelu (x0) x1 x2 x3 x4 x5 := by
  funext i
  obtain ⟨p, q, rfl⟩ : ∃ (p : Fin 100000) (q : Fin 128), i = ix2 p q := ⟨i 0, i 1, eq_ix2 i⟩
  unfold layerRelu
  rw [denseRelu_ix2]
  rw [val_main_v25_apply, val_main_call0_v0_apply, val_main_call0_cst_apply, val_main_v24_apply, val_main_v23_apply, val_main_v22_apply, val_main_v21_apply, val_main_v20_apply, val_main_v19_apply]
  rw [Ideal.maximumf_def, Ideal.addf_def, Ideal.addf_def, Ideal.ofBits_def, Ideal.ofBits_zero_f32]
  unfold denseAt
  refine congrArg (fun z => max z 0) (congrArg₂ (· + ·) (congrArg₂ (· + ·) (Finset.sum_congr rfl fun k _ => ?_) (Finset.sum_congr rfl fun k _ => ?_)) ?_)
  · have el : lidx_main_v19 (ix2 p q) k = ix2 p k := funext fun a => by match a with | ⟨0, _⟩ => rfl | ⟨1, _⟩ => rfl
    have er : ridx_main_v19 (ix2 p q) k = ix2 k q := funext fun a => by match a with | ⟨0, _⟩ => rfl | ⟨1, _⟩ => rfl
    rw [el, er]
  · have el : lidx_main_v20 (ix2 p q) k = ix2 p k := funext fun a => by match a with | ⟨0, _⟩ => rfl | ⟨1, _⟩ => rfl
    have er : ridx_main_v20 (ix2 p q) k = ix2 k q := funext fun a => by match a with | ⟨0, _⟩ => rfl | ⟨1, _⟩ => rfl
    rw [el, er, mean_ref1, meanMul_apply, nbrSum_ref1, degSum_ref1]
  · have e : idx_main_v22 (idx_main_v23 (ix2 p q)) = ix1 q := funext fun a => by match a with | ⟨0, _⟩ => rfl
    rw [e]
    exact (shapeCast_a_1a_apply x5 _ (0 : Fin 1) q).symm

/-! ## Layer 2 of the reference -/

/-- The reference's neighbour sums of layer 2 are the shared function of its input features. -/
theorem nbrSum_ref2 (x0 : FVec Ideal S100000x128 .f32) (x1 x2 : IVec S1600000 32) (x3 x4 : FVec Ideal S128x128 .f32) (x5 : FVec Ideal S128 .f32) :
    val_main_v39 (F := Ideal) x0 x1 x2 x3 x4 x5 = nbrSum (val_main_v25 (F := Ideal) x0 x1 x2 x3 x4 x5) x1 x2 := by
  unfold val_main_v39 val_main_v38 val_main_v37 val_main_cst_8 val_main_v36 val_main_v35 val_main_v34 val_main_v33 val_main_v32 val_main_c_7 val_main_v31 val_main_v30 val_main_c_6 nbrSum dstStart srcStart
  rfl

/-- Its degree sums are the shared function of the destinations. -/
theorem degSum_ref2 (x2 : IVec S1600000 32) : val_main_v29 (F := Ideal) x2 = degSum x2 := by
  unfold val_main_v29 val_main_v28 val_main_v27 val_main_cst_5 val_main_v26 val_main_cst_4 degSum dstStart
  rfl

/-- The reference's neighbour mean of layer 2 at `(p, k)`: the neighbour sum over the clamped degree of node `p`. -/
theorem mean_ref2 (x0 : FVec Ideal S100000x128 .f32) (x1 x2 : IVec S1600000 32) (x3 x4 : FVec Ideal S128x128 .f32) (x5 : FVec Ideal S128 .f32) (p : Fin 100000) (k : Fin 128) :
    val_main_v44 (F := Ideal) x0 x1 x2 x3 x4 x5 (ix2 p k)
      = Ideal.div (val_main_v39 (F := Ideal) x0 x1 x2 x3 x4 x5 (ix2 p k)) (max (val_main_v29 (F := Ideal) x2 (ix1 p)) 1) := by
  rw [val_main_v44_apply, val_main_v43_apply, val_main_v42_apply, val_main_v41_apply, val_main_v40_apply, val_main_cst_9_apply]
  have e : idx_main_v42 (idx_main_v43 (ix2 p k)) = ix1 p := funext fun a => by match a with | ⟨0, _⟩ => rfl
  rw [e, Ideal.hostDivf_def, Ideal.maximumf_def, Ideal.ofBits_def, Ideal.ofBits_one_f32]

/-- Layer 2 of the reference is the shared layer function of its input features, the graph and its parameters. -/
theorem layer_ref2 (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32) :
    val_main_v51 (F := Ideal) x0 x1 x2 x3 x4 x5 x6 x7 x8 = layerRelu (val_main_v25 (F := Ideal) x0 x1 x2 x3 x4 x5) x1 x2 x6 x7 x8 := by
  funext i
  obtain ⟨p, q, rfl⟩ : ∃ (p : Fin 100000) (q : Fin 128), i = ix2 p q := ⟨i 0, i 1, eq_ix2 i⟩
  unfold layerRelu
  rw [denseRelu_ix2]
  rw [val_main_v51_apply, val_main_call1_v0_apply, val_main_call1_cst_apply, val_main_v50_apply, val_main_v49_apply, val_main_v48_apply, val_main_v47_apply, val_main_v46_apply, val_main_v45_apply]
  rw [Ideal.maximumf_def, Ideal.addf_def, Ideal.addf_def, Ideal.ofBits_def, Ideal.ofBits_zero_f32]
  unfold denseAt
  refine congrArg (fun z => max z 0) (congrArg₂ (· + ·) (congrArg₂ (· + ·) (Finset.sum_congr rfl fun k _ => ?_) (Finset.sum_congr rfl fun k _ => ?_)) ?_)
  · have el : lidx_main_v45 (ix2 p q) k = ix2 p k := funext fun a => by match a with | ⟨0, _⟩ => rfl | ⟨1, _⟩ => rfl
    have er : ridx_main_v45 (ix2 p q) k = ix2 k q := funext fun a => by match a with | ⟨0, _⟩ => rfl | ⟨1, _⟩ => rfl
    rw [el, er]
  · have el : lidx_main_v46 (ix2 p q) k = ix2 p k := funext fun a => by match a with | ⟨0, _⟩ => rfl | ⟨1, _⟩ => rfl
    have er : ridx_main_v46 (ix2 p q) k = ix2 k q := funext fun a => by match a with | ⟨0, _⟩ => rfl | ⟨1, _⟩ => rfl
    rw [el, er, mean_ref2, meanMul_apply, nbrSum_ref2, degSum_ref2]
  · have e : idx_main_v48 (idx_main_v49 (ix2 p q)) = ix1 q := funext fun a => by match a with | ⟨0, _⟩ => rfl
    rw [e]
    exact (shapeCast_a_1a_apply x8 _ (0 : Fin 1) q).symm

/-! ## Layer 3 of the reference -/

/-- The reference's neighbour sums of layer 3 are the shared function of its input features. -/
theorem nbrSum_ref3 (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32) :
    val_main_v65 (F := Ideal) x0 x1 x2 x3 x4 x5 x6 x7 x8 = nbrSum (val_main_v51 (F := Ideal) x0 x1 x2 x3 x4 x5 x6 x7 x8) x1 x2 := by
  unfold val_main_v65 val_main_v64 val_main_v63 val_main_cst_14 val_main_v62 val_main_v61 val_main_v60 val_main_v59 val_main_v58 val_main_c_13 val_main_v57 val_main_v56 val_main_c_12 nbrSum dstStart srcStart
  rfl

/-- Its degree sums are the shared function of the destinations. -/
theorem degSum_ref3 (x2 : IVec S1600000 32) : val_main_v55 (F := Ideal) x2 = degSum x2 := by
  unfold val_main_v55 val_main_v54 val_main_v53 val_main_cst_11 val_main_v52 val_main_cst_10 degSum dstStart
  rfl

/-- The reference's neighbour mean of layer 3 at `(p, k)`: the neighbour sum over the clamped degree of node `p`. -/
theorem mean_ref3 (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32) (p : Fin 100000) (k : Fin 128) :
    val_main_v70 (F := Ideal) x0 x1 x2 x3 x4 x5 x6 x7 x8 (ix2 p k)
      = Ideal.div (val_main_v65 (F := Ideal) x0 x1 x2 x3 x4 x5 x6 x7 x8 (ix2 p k)) (max (val_main_v55 (F := Ideal) x2 (ix1 p)) 1) := by
  rw [val_main_v70_apply, val_main_v69_apply, val_main_v68_apply, val_main_v67_apply, val_main_v66_apply, val_main_cst_15_apply]
  have e : idx_main_v68 (idx_main_v69 (ix2 p k)) = ix1 p := funext fun a => by match a with | ⟨0, _⟩ => rfl
  rw [e, Ideal.hostDivf_def, Ideal.maximumf_def, Ideal.ofBits_def, Ideal.ofBits_one_f32]

/-- Layer 3 of the reference is the shared layer function of its input features, the graph and its parameters. -/
theorem layer_ref3 (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32) (x9 x10 : FVec Ideal S128x64 .f32) (x11 : FVec Ideal S64 .f32) :
    val_main_v76 (F := Ideal) x0 x1 x2 x3 x4 x5 x6 x7 x8 x9 x10 x11 = layerLast (val_main_v51 (F := Ideal) x0 x1 x2 x3 x4 x5 x6 x7 x8) x1 x2 x9 x10 x11 := by
  funext i
  obtain ⟨p, q, rfl⟩ : ∃ (p : Fin 100000) (q : Fin 64), i = ix2 p q := ⟨i 0, i 1, eq_ix2 i⟩
  unfold layerLast
  rw [dense_ix2]
  rw [val_main_v76_apply, val_main_v75_apply, val_main_v74_apply, val_main_v73_apply, val_main_v72_apply, val_main_v71_apply]
  rw [Ideal.addf_def, Ideal.addf_def]
  unfold denseAt
  refine (congrArg₂ (· + ·) (congrArg₂ (· + ·) (Finset.sum_congr rfl fun k _ => ?_) (Finset.sum_congr rfl fun k _ => ?_)) ?_)
  · have el : lidx_main_v71 (ix2 p q) k = ix2 p k := funext fun a => by match a with | ⟨0, _⟩ => rfl | ⟨1, _⟩ => rfl
    have er : ridx_main_v71 (ix2 p q) k = ix2 k q := funext fun a => by match a with | ⟨0, _⟩ => rfl | ⟨1, _⟩ => rfl
    rw [el, er]
  · have el : lidx_main_v72 (ix2 p q) k = ix2 p k := funext fun a => by match a with | ⟨0, _⟩ => rfl | ⟨1, _⟩ => rfl
    have er : ridx_main_v72 (ix2 p q) k = ix2 k q := funext fun a => by match a with | ⟨0, _⟩ => rfl | ⟨1, _⟩ => rfl
    rw [el, er, mean_ref3, meanMul_apply, nbrSum_ref3, degSum_ref3]
  · have e : idx_main_v74 (idx_main_v75 (ix2 p q)) = ix1 q := funext fun a => by match a with | ⟨0, _⟩ => rfl
    rw [e]
    exact (shapeCast_a_1a_apply x11 _ (0 : Fin 1) q).symm

/-! ## The whole reference -/

/-- The reference's result is the three shared layers applied one after the other. -/
theorem result_eq_net (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32) (x9 x10 : FVec Ideal S128x64 .f32) (x11 : FVec Ideal S64 .f32) :
    val_main_v76 (F := Ideal) x0 x1 x2 x3 x4 x5 x6 x7 x8 x9 x10 x11 = net x0 x1 x2 x3 x4 x5 x6 x7 x8 x9 x10 x11 := by
  unfold net
  rw [layer_ref3, layer_ref2, layer_ref1]

end Cert.Sage.Ref

end
-- ==== Proof.lean ====
/-
  A three-layer mean-aggregating graph network: the kernel program against its reference, on the extended reals.

  Both programs gather, for every edge, the feature row of its source node, add it into the row of its
  destination node, and scale the sums by the node's in-degree clamped below by one; each layer is then
  `h · Wself + mean · Wneigh + b`, rectified in the first two layers.  The kernel program computes the dense
  part of each layer in a kernel region tiled by 5000 rows and scales the neighbour sums by the reciprocal
  `1 / max deg 1`; the reference computes whole matrix products and divides by `max deg 1`.  On the extended
  reals the tiles assemble to the whole product (every row lies in exactly one tile and an entry depends on its
  own row only), and the product with the reciprocal of a clamped degree is the quotient by it (a clamped degree
  is at least one, so not zero; no finiteness is needed).  Hence both results are one function, `Cert.Sage.net`,
  of the arguments: Proof/SageKernelValue.lean for the kernel program, Proof/SageRef.lean for the reference.

  The frames: both kernel programs run to the end with their arguments unchanged (the frame certificates over the
  three regions), and the reference's frame is its run with the result dropped.  The ideal pass rewrote nothing, so
  there is nothing to preserve.
-/
import proofs.«177049_j23175643530075_1_alg».proof.Defs
import proofs.«177049_j23175643530075_1_alg».proof.Proof.Gen.Kernel
import proofs.«177049_j23175643530075_1_alg».proof.Proof.Gen.KernelIdeal
import proofs.«177049_j23175643530075_1_alg».proof.Proof.Gen.ReferenceIdeal
import proofs.«177049_j23175643530075_1_alg».proof.Proof.Gen.Pre_finite_inputs
import proofs.«177049_j23175643530075_1_alg».proof.Proof.Gen.ReferenceIdeal.Run
import proofs.«177049_j23175643530075_1_alg».proof.Proof.Gen.ReferenceIdeal.Read
import proofs.«177049_j23175643530075_1_alg».proof.Proof.KernelFrameP
import proofs.«177049_j23175643530075_1_alg».proof.Proof.KernelIdealFrameP
import proofs.«177049_j23175643530075_1_alg».proof.Proof.SageKernelValue
import proofs.«177049_j23175643530075_1_alg».proof.Proof.SageRef
import Idealize.ShloMosaic.Adequacy
import Idealize.ShloMosaic.Init

noncomputable section

namespace Cert.Proof

open Idealize.ShloMosaic Idealize.SL.Sem

/-- The kernel program as printed runs to the end with its arguments unchanged. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel program's result array and the reference's are the same network function
    of arguments that agree. -/
theorem algebraic : Cert.algebraic_KernelIdeal_ReferenceIdeal := by
  intro m ρ m' ρ' _ hagree
  refine ⟨_, Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v76_eq, Cert.Sage.Ref.result_eq_net, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
